-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 111
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.DotRows.lean ====
/-
  Matrix products read at an index, over the extended reals.

  Every product in the two programs is a plain one: rows of the left operand against columns of the right, one contracted
  axis.  The kernel computes it block by block — `tpu.matmul` of a [4000, K] block of rows (cast to bf16, which changes
  nothing over the extended reals) and the whole [K, N] right operand into a zero accumulator — and the reference as ONE
  `dot_general` of the whole [100000, K] array.  At an output index (row, column) each is the same finite sum

      ∑ k, left (row, k) * right (k, column)

  (`Ideal.matmul_constant_zero_apply`, `Ideal.dotGeneral_apply`; the contraction index set of the dimension record is put in
  bijection with the K positions of the contracted axis).  No law of arithmetic is used: the summands are the same products
  in the same order, so nothing here needs the entries to be finite.

  Last, the statement the block-by-block reading uses (`block_row…`): if a block's row `p` is the array's row `r` and the
  right operands agree, the block product at (p, q) is the whole product at (r, q).
-/
import proofs.«145475_j47047071760639_1_alg».proof.Proof.Gen.KernelIdeal.Skeleton
import proofs.«145475_j47047071760639_1_alg».proof.Proof.Gen.ReferenceIdeal
import Idealize.ShloMosaic.Lib.ValueIdx
import Idealize.ShloMosaic.Lib.Pipeline.Value
import Idealize.ShloMosaic.PureOps.Ideal.Laws

noncomputable section

namespace Cert.Rows

open Idealize.ShloMosaic Idealize.ShloMosaic.ValueIdx

/-! ### The plain matrix product `dot_S4000x256_S256x128_S4000x128_1_0_0_1_n_n`: its operand indices at an output index and a contraction position -/

theorem lhsK0_0 (i : Cert.KernelIdeal.S4000x128.Idx) (q : Cert.KernelIdeal.dot_S4000x256_S256x128_S4000x128_1_0_0_1_n_n.contr.Idx) :
    (Cert.KernelIdeal.dot_S4000x256_S256x128_S4000x128_1_0_0_1_n_n.lhsIdx i q 0).val = (i 0).val := by
  unfold DotDims.lhsIdx
  rw [dif_neg (show ¬(0 : Fin Cert.KernelIdeal.S4000x256.rank) ∈ Cert.KernelIdeal.dot_S4000x256_S256x128_S4000x128_1_0_0_1_n_n.lhsBatch by decide), dif_pos (show (0 : Fin Cert.KernelIdeal.S4000x256.rank) ∈ Cert.KernelIdeal.dot_S4000x256_S256x128_S4000x128_1_0_0_1_n_n.lhsNonContracting by decide)]
  rfl
theorem lhsK0_1 (i : Cert.KernelIdeal.S4000x128.Idx) (q : Cert.KernelIdeal.dot_S4000x256_S256x128_S4000x128_1_0_0_1_n_n.contr.Idx) :
    (Cert.KernelIdeal.dot_S4000x256_S256x128_S4000x128_1_0_0_1_n_n.lhsIdx i q 1).val = (q ⟨0, by decide⟩).val :=
  Cert.KernelIdeal.dot_S4000x256_S256x128_S4000x128_1_0_0_1_n_n.lhsIdx_val_of_single rfl i q
theorem rhsK0_0 (i : Cert.KernelIdeal.S4000x128.Idx) (q : Cert.KernelIdeal.dot_S4000x256_S256x128_S4000x128_1_0_0_1_n_n.contr.Idx) :
    (Cert.KernelIdeal.dot_S4000x256_S256x128_S4000x128_1_0_0_1_n_n.rhsIdx i q 0).val = (q ⟨0, by decide⟩).val :=
  Cert.KernelIdeal.dot_S4000x256_S256x128_S4000x128_1_0_0_1_n_n.rhsIdx_val_of_single rfl i q
theorem rhsK0_1 (i : Cert.KernelIdeal.S4000x128.Idx) (q : Cert.KernelIdeal.dot_S4000x256_S256x128_S4000x128_1_0_0_1_n_n.contr.Idx) :
    (Cert.KernelIdeal.dot_S4000x256_S256x128_S4000x128_1_0_0_1_n_n.rhsIdx i q 1).val = (i 1).val := by
  unfold DotDims.rhsIdx
  rw [dif_neg (show ¬(1 : Fin Cert.KernelIdeal.S256x128.rank) ∈ Cert.KernelIdeal.dot_S4000x256_S256x128_S4000x128_1_0_0_1_n_n.rhsBatch by decide), dif_pos (show (1 : Fin Cert.KernelIdeal.S256x128.rank) ∈ Cert.KernelIdeal.dot_S4000x256_S256x128_S4000x128_1_0_0_1_n_n.rhsNonContracting by decide)]
  rfl

/-- The sum over the record's contraction index set is the sum over the 256 positions of the contracted axis: row
    `i 0` of the left operand against column `i 1` of the right one. -/
theorem sumK0 (l : Cert.KernelIdeal.S4000x256.Idx → EReal) (r : Cert.KernelIdeal.S256x128.Idx → EReal) (a : Fin 4000) (b : Fin 128) :
    ∑ k : Cert.KernelIdeal.dot_S4000x256_S256x128_S4000x128_1_0_0_1_n_n.contr.Idx, l (Cert.KernelIdeal.dot_S4000x256_S256x128_S4000x128_1_0_0_1_n_n.lhsIdx (ix2 a b) k) * r (Cert.KernelIdeal.dot_S4000x256_S256x128_S4000x128_1_0_0_1_n_n.rhsIdx (ix2 a b) k)
      = ∑ k : Fin 256, l (ix2 a k) * r (ix2 k b) := by
  rw [← Equiv.sum_comp (contrEquiv1 Cert.KernelIdeal.dot_S4000x256_S256x128_S4000x128_1_0_0_1_n_n 256 rfl rfl).symm]
  refine Finset.sum_congr rfl fun k _ => ?_
  have hk := contrEquiv1_symm_val Cert.KernelIdeal.dot_S4000x256_S256x128_S4000x128_1_0_0_1_n_n 256 rfl rfl k
  have el : Cert.KernelIdeal.dot_S4000x256_S256x128_S4000x128_1_0_0_1_n_n.lhsIdx (ix2 a b) ((contrEquiv1 Cert.KernelIdeal.dot_S4000x256_S256x128_S4000x128_1_0_0_1_n_n 256 rfl rfl).symm k) = ix2 a k := funext fun d => Fin.ext (by
    match d with
    | ⟨0, _⟩ => exact lhsK0_0 _ _
    | ⟨1, _⟩ => exact (lhsK0_1 _ _).trans hk)
  have er : Cert.KernelIdeal.dot_S4000x256_S256x128_S4000x128_1_0_0_1_n_n.rhsIdx (ix2 a b) ((contrEquiv1 Cert.KernelIdeal.dot_S4000x256_S256x128_S4000x128_1_0_0_1_n_n 256 rfl rfl).symm k) = ix2 k b := funext fun d => Fin.ext (by
    match d with
    | ⟨0, _⟩ => exact (rhsK0_0 _ _).trans hk
    | ⟨1, _⟩ => exact rhsK0_1 _ _)
  rw [el, er]

/-! ### The plain matrix product `dot_S4000x128_S128x64_S4000x64_1_0_0_1_n_n`: its operand indices at an output index and a contraction position -/

theorem lhsK1_0 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.lhsIdx i q 0).val = (i 0).val := by
  unfold DotDims.lhsIdx
  rw [dif_neg (show ¬(0 : Fin Cert.KernelIdeal.S4000x128.rank) ∈ Cert.KernelIdeal.dot_S4000x128_S128x64_S4000x64_1_0_0_1_n_n.lhsBatch by decide), dif_pos (show (0 : Fin Cert.KernelIdeal.S4000x128.rank) ∈ Cert.KernelIdeal.dot_S4000x128_S128x64_S4000x64_1_0_0_1_n_n.lhsNonContracting by decide)]
  rfl
theorem lhsK1_1 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.lhsIdx i q 1).val = (q ⟨0, by decide⟩).val :=
  Cert.KernelIdeal.dot_S4000x128_S128x64_S4000x64_1_0_0_1_n_n.lhsIdx_val_of_single rfl i q
theorem rhsK1_0 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.rhsIdx i q 0).val = (q ⟨0, by decide⟩).val :=
  Cert.KernelIdeal.dot_S4000x128_S128x64_S4000x64_1_0_0_1_n_n.rhsIdx_val_of_single rfl i q
theorem rhsK1_1 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.rhsIdx i q 1).val = (i 1).val := by
  unfold DotDims.rhsIdx
  rw [dif_neg (show ¬(1 : Fin Cert.KernelIdeal.S128x64.rank) ∈ Cert.KernelIdeal.dot_S4000x128_S128x64_S4000x64_1_0_0_1_n_n.rhsBatch by decide), dif_pos (show (1 : Fin Cert.KernelIdeal.S128x64.rank) ∈ Cert.KernelIdeal.dot_S4000x128_S128x64_S4000x64_1_0_0_1_n_n.rhsNonContracting by decide)]
  rfl

/-- The sum over the record's contraction index set is the sum over the 128 positions of the contracted axis: row
    `i 0` of the left operand against column `i 1` of the right one. -/
theorem sumK1 (l : Cert.KernelIdeal.S4000x128.Idx → EReal) (r : Cert.KernelIdeal.S128x64.Idx → EReal) (a : Fin 4000) (b : Fin 64) :
    ∑ k : Cert.KernelIdeal.dot_S4000x128_S128x64_S4000x64_1_0_0_1_n_n.contr.Idx, l (Cert.KernelIdeal.dot_S4000x128_S128x64_S4000x64_1_0_0_1_n_n.lhsIdx (ix2 a b) k) * r (Cert.KernelIdeal.dot_S4000x128_S128x64_S4000x64_1_0_0_1_n_n.rhsIdx (ix2 a b) k)
      = ∑ k : Fin 128, l (ix2 a k) * r (ix2 k b) := by
  rw [← Equiv.sum_comp (contrEquiv1 Cert.KernelIdeal.dot_S4000x128_S128x64_S4000x64_1_0_0_1_n_n 128 rfl rfl).symm]
  refine Finset.sum_congr rfl fun k _ => ?_
  have hk := contrEquiv1_symm_val Cert.KernelIdeal.dot_S4000x128_S128x64_S4000x64_1_0_0_1_n_n 128 rfl rfl k
  have el : Cert.KernelIdeal.dot_S4000x128_S128x64_S4000x64_1_0_0_1_n_n.lhsIdx (ix2 a b) ((contrEquiv1 Cert.KernelIdeal.dot_S4000x128_S128x64_S4000x64_1_0_0_1_n_n 128 rfl rfl).symm k) = ix2 a k := funext fun d => Fin.ext (by
    match d with
    | ⟨0, _⟩ => exact lhsK1_0 _ _
    | ⟨1, _⟩ => exact (lhsK1_1 _ _).trans hk)
  have er : Cert.KernelIdeal.dot_S4000x128_S128x64_S4000x64_1_0_0_1_n_n.rhsIdx (ix2 a b) ((contrEquiv1 Cert.KernelIdeal.dot_S4000x128_S128x64_S4000x64_1_0_0_1_n_n 128 rfl rfl).symm k) = ix2 k b := funext fun d => Fin.ext (by
    match d with
    | ⟨0, _⟩ => exact (rhsK1_0 _ _).trans hk
    | ⟨1, _⟩ => exact rhsK1_1 _ _)
  rw [el, er]

/-! ### The plain matrix product `dot_S100000x256_S256x128_S100000x128_1_0_0_1_n_n`: its operand indices at an output index and a contraction position -/

theorem lhsR0_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem lhsR0_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem rhsR0_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem rhsR0_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The sum over the record's contraction index set is the sum over the 256 positions of the contracted axis: row
    `i 0` of the left operand against column `i 1` of the right one. -/
theorem sumR0 (l : Cert.ReferenceIdeal.S100000x256.Idx → EReal) (r : Cert.ReferenceIdeal.S256x128.Idx → EReal) (a : Fin 100000) (b : Fin 128) :
    ∑ k : Cert.ReferenceIdeal.dot_S100000x256_S256x128_S100000x128_1_0_0_1_n_n.contr.Idx, l (Cert.ReferenceIdeal.dot_S100000x256_S256x128_S100000x128_1_0_0_1_n_n.lhsIdx (ix2 a b) k) * r (Cert.ReferenceIdeal.dot_S100000x256_S256x128_S100000x128_1_0_0_1_n_n.rhsIdx (ix2 a b) k)
      = ∑ k : Fin 256, l (ix2 a k) * r (ix2 k b) := by
  rw [← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 a b) ((contrEquiv1 Cert.ReferenceIdeal.dot_S100000x256_S256x128_S100000x128_1_0_0_1_n_n 256 rfl rfl).symm k) = ix2 a k := funext fun d => Fin.ext (by
    match d with
    | ⟨0, _⟩ => exact lhsR0_0 _ _
    | ⟨1, _⟩ => exact (lhsR0_1 _ _).trans hk)
  have er : Cert.ReferenceIdeal.dot_S100000x256_S256x128_S100000x128_1_0_0_1_n_n.rhsIdx (ix2 a b) ((contrEquiv1 Cert.ReferenceIdeal.dot_S100000x256_S256x128_S100000x128_1_0_0_1_n_n 256 rfl rfl).symm k) = ix2 k b := funext fun d => Fin.ext (by
    match d with
    | ⟨0, _⟩ => exact (rhsR0_0 _ _).trans hk
    | ⟨1, _⟩ => exact rhsR0_1 _ _)
  rw [el, er]

/-! ### The plain matrix product `dot_S100000x128_S128x64_S100000x64_1_0_0_1_n_n`: its operand indices at an output index and a contraction position -/

theorem lhsR1_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhsR1_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhsR1_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhsR1_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The sum over the record's contraction index set is the sum over the 128 positions of the contracted axis: row
    `i 0` of the left operand against column `i 1` of the right one. -/
theorem sumR1 (l : Cert.ReferenceIdeal.S100000x128.Idx → EReal) (r : Cert.ReferenceIdeal.S128x64.Idx → EReal) (a : Fin 100000) (b : Fin 64) :
    ∑ k : Cert.ReferenceIdeal.dot_S100000x128_S128x64_S100000x64_1_0_0_1_n_n.contr.Idx, l (Cert.ReferenceIdeal.dot_S100000x128_S128x64_S100000x64_1_0_0_1_n_n.lhsIdx (ix2 a b) k) * r (Cert.ReferenceIdeal.dot_S100000x128_S128x64_S100000x64_1_0_0_1_n_n.rhsIdx (ix2 a b) k)
      = ∑ k : Fin 128, l (ix2 a k) * r (ix2 k b) := by
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 a b) ((contrEquiv1 Cert.ReferenceIdeal.dot_S100000x128_S128x64_S100000x64_1_0_0_1_n_n 128 rfl rfl).symm k) = ix2 a k := funext fun d => Fin.ext (by
    match d with
    | ⟨0, _⟩ => exact lhsR1_0 _ _
    | ⟨1, _⟩ => exact (lhsR1_1 _ _).trans hk)
  have er : Cert.ReferenceIdeal.dot_S100000x128_S128x64_S100000x64_1_0_0_1_n_n.rhsIdx (ix2 a b) ((contrEquiv1 Cert.ReferenceIdeal.dot_S100000x128_S128x64_S100000x64_1_0_0_1_n_n 128 rfl rfl).symm k) = ix2 k b := funext fun d => Fin.ext (by
    match d with
    | ⟨0, _⟩ => exact (rhsR1_0 _ _).trans hk
    | ⟨1, _⟩ => exact rhsR1_1 _ _)
  rw [el, er]

/-! ### The three kernel bodies' stored values and the reference's two products, at an index -/

open Cert.KernelIdeal Cert.KernelIdeal.Gen in
/-- Region 0's stored block: [4000, 256] rows against the [256, 128] weights. -/
theorem pay0_apply (x : Vec Ideal Cert.KernelIdeal.S4000x256 .f32) (w : Vec Ideal Cert.KernelIdeal.S256x128 .f32) (p : Fin 4000) (q : Fin 128) :
    k0_pay1 (F := Ideal) x w (ix2 p q) = ∑ k : Fin 256, x (ix2 p k) * w (ix2 k q) := by
  unfold k0_pay1
  refine (Ideal.matmul_constant_zero_apply Cert.KernelIdeal.dot_S4000x256_S256x128_S4000x128_1_0_0_1_n_n none _ _ (ix2 p q)).trans ?_
  exact sumK0 x w p q

open Cert.KernelIdeal Cert.KernelIdeal.Gen in
/-- Region 1's stored block: [4000, 128] rows (through a shape cast to the same shape) against [128, 64] weights. -/
theorem pay1_apply (x : Vec Ideal Cert.KernelIdeal.S4000x128 .f32) (w : Vec Ideal Cert.KernelIdeal.S128x64 .f32) (p : Fin 4000) (q : Fin 64) :
    k1_pay1 (F := Ideal) x w (ix2 p q) = ∑ k : Fin 128, x (ix2 p k) * w (ix2 k q) := by
  unfold k1_pay1
  rw [shapeCast_self]
  refine (Ideal.matmul_constant_zero_apply Cert.KernelIdeal.dot_S4000x128_S128x64_S4000x64_1_0_0_1_n_n none _ _ (ix2 p q)).trans ?_
  exact sumK1 x w p q

open Cert.KernelIdeal Cert.KernelIdeal.Gen in
/-- Region 2's stored block: the same body as region 1's. -/
theorem pay2_apply (x : Vec Ideal Cert.KernelIdeal.S4000x128 .f32) (w : Vec Ideal Cert.KernelIdeal.S128x64 .f32) (p : Fin 4000) (q : Fin 64) :
    k2_pay1 (F := Ideal) x w (ix2 p q) = ∑ k : Fin 128, x (ix2 p k) * w (ix2 k q) := by
  unfold k2_pay1
  rw [shapeCast_self]
  refine (Ideal.matmul_constant_zero_apply Cert.KernelIdeal.dot_S4000x128_S128x64_S4000x64_1_0_0_1_n_n none _ _ (ix2 p q)).trans ?_
  exact sumK1 x w p q

/-- The reference's [100000, 256] × [256, 128] product. -/
theorem bigdot0_apply (X : FVec Ideal Cert.ReferenceIdeal.S100000x256 .f32) (W : FVec Ideal Cert.ReferenceIdeal.S256x128 .f32) (r : Fin 100000) (q : Fin 128) :
    Host.dotGeneral Cert.ReferenceIdeal.dot_S100000x256_S256x128_S100000x128_1_0_0_1_n_n none X W (ix2 r q)
      = ∑ k : Fin 256, X (ix2 r k) * W (ix2 k q) := by
  simp only [Host.dotGeneral]
  rw [Ideal.dotGeneral_apply]
  exact sumR0 X W r q

/-- The reference's [100000, 128] × [128, 64] product (it occurs twice, with two weight arrays). -/
theorem bigdot1_apply (X : FVec Ideal Cert.ReferenceIdeal.S100000x128 .f32) (W : FVec Ideal Cert.ReferenceIdeal.S128x64 .f32) (r : Fin 100000) (q : Fin 64) :
    Host.dotGeneral Cert.ReferenceIdeal.dot_S100000x128_S128x64_S100000x64_1_0_0_1_n_n none X W (ix2 r q)
      = ∑ k : Fin 128, X (ix2 r k) * W (ix2 k q) := by
  simp only [Host.dotGeneral]
  rw [Ideal.dotGeneral_apply]
  exact sumR1 X W r q

/-! ### One row of a block against the whole array's row -/

open Cert.KernelIdeal Cert.KernelIdeal.Gen in
theorem block_row0 (X : FVec Ideal Cert.ReferenceIdeal.S100000x256 .f32) (W : FVec Ideal Cert.ReferenceIdeal.S256x128 .f32)
    (x : Vec Ideal Cert.KernelIdeal.S4000x256 .f32) (w : Vec Ideal Cert.KernelIdeal.S256x128 .f32) (r : Fin 100000) (p : Fin 4000) (q : Fin 128)
    (hx : ∀ k : Fin 256, x (ix2 p k) = X (ix2 r k)) (hw : ∀ k : Fin 256, w (ix2 k q) = W (ix2 k q)) :
    k0_pay1 (F := Ideal) x w (ix2 p q)
      = Host.dotGeneral Cert.ReferenceIdeal.dot_S100000x256_S256x128_S100000x128_1_0_0_1_n_n none X W (ix2 r q) := by
  rw [pay0_apply, bigdot0_apply]
  exact Finset.sum_congr rfl fun k _ => by rw [hx k, hw k]

open Cert.KernelIdeal Cert.KernelIdeal.Gen in
theorem block_row1 (X : FVec Ideal Cert.ReferenceIdeal.S100000x128 .f32) (W : FVec Ideal Cert.ReferenceIdeal.S128x64 .f32)
    (x : Vec Ideal Cert.KernelIdeal.S4000x128 .f32) (w : Vec Ideal Cert.KernelIdeal.S128x64 .f32) (r : Fin 100000) (p : Fin 4000) (q : Fin 64)
    (hx : ∀ k : Fin 128, x (ix2 p k) = X (ix2 r k)) (hw : ∀ k : Fin 128, w (ix2 k q) = W (ix2 k q)) :
    k1_pay1 (F := Ideal) x w (ix2 p q)
      = Host.dotGeneral Cert.ReferenceIdeal.dot_S100000x128_S128x64_S100000x64_1_0_0_1_n_n none X W (ix2 r q) := by
  rw [pay1_apply, bigdot1_apply]
  exact Finset.sum_congr rfl fun k _ => by rw [hx k, hw k]

open Cert.KernelIdeal Cert.KernelIdeal.Gen in
theorem block_row2 (X : FVec Ideal Cert.ReferenceIdeal.S100000x128 .f32) (W : FVec Ideal Cert.ReferenceIdeal.S128x64 .f32)
    (x : Vec Ideal Cert.KernelIdeal.S4000x128 .f32) (w : Vec Ideal Cert.KernelIdeal.S128x64 .f32) (r : Fin 100000) (p : Fin 4000) (q : Fin 64)
    (hx : ∀ k : Fin 128, x (ix2 p k) = X (ix2 r k)) (hw : ∀ k : Fin 128, w (ix2 k q) = W (ix2 k q)) :
    k2_pay1 (F := Ideal) x w (ix2 p q)
      = Host.dotGeneral Cert.ReferenceIdeal.dot_S100000x128_S128x64_S100000x64_1_0_0_1_n_n none X W (ix2 r q) := by
  rw [pay2_apply, bigdot1_apply]
  exact Finset.sum_congr rfl fun k _ => by rw [hx k, hw k]

end Cert.Rows

end
-- ==== Proof.Region0.lean ====
/-
  Region 0 (X · W1: the [100000, 256] features against the [256, 128] weights), block by block.

  The grid has 25 points.  Point `t` fetches rows `4000 t … 4000 t + 3999` of the left operand and the whole right operand, stores
  their product into its output block, and the block is written back to rows `4000 t … 4000 t + 3999` of the result array.  Row
  `p` of block `t` is row `4000 t + p` of the array, so by the row lemma of the products the block written back at `t` is block `t`
  of ONE function of the region's entry contents — the whole product of the two operand arrays —, and since the 25 blocks
  cover the 100000 rows (row `r` lies in block `r / 4000`), the result array ends holding that product.
-/
import proofs.«145475_j47047071760639_1_alg».proof.Proof.Gen.KernelIdeal.Frame
import proofs.«145475_j47047071760639_1_alg».proof.Proof.DotRows

noncomputable section

namespace Cert.Rows

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- What the region leaves in its result array: the product of its two operand arrays as it finds them. -/
def prod0 (c : Dev nD) : FVec Ideal Cert.ReferenceIdeal.S100000x128 .f32 :=
  Host.dotGeneral (F := Ideal) (φ₁ := .f32) (φ₂ := .f32) Cert.ReferenceIdeal.dot_S100000x256_S256x128_S100000x128_1_0_0_1_n_n none (V c main_arg0 : FVec Ideal Cert.ReferenceIdeal.S100000x256 .f32) (V c main_arg2 : FVec Ideal Cert.ReferenceIdeal.S256x128 .f32)

/-- The three index maps over the grid: the left operand's and the result's blocks move down the rows with the point,
    the right operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz0]
  simp only [View.ld_unit_zero (S := S4000x256) hz0, View.ld_unit_zero (S := S256x128) hz0]
  obtain ⟨e0, e1, e2, e3, e4, e5⟩ := idx0 t
  have ht : t.val < 25 := by have h := t.isLt; have hN : cfg0.N = 25 := N_0; omega
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q) = prod0 V c (((cfg0.win 2).blk t).view.emb (ix2 p q))
  have he : ((cfg0.win 2).blk t).view.emb (ix2 p q) = ix2 (⟨4000 * t.val + p.val, by omega⟩ : Fin 100000) q := by
    funext a; apply Fin.ext
    match a with
    | ⟨0, _⟩ => show win0_2.index t (0 : Fin 2) * 4000 + 1 * p.val = 4000 * t.val + p.val; omega
    | ⟨1, _⟩ => show win0_2.index t (1 : Fin 2) * 128 + 1 * q.val = q.val; omega
  rw [he]
  unfold prod0
  refine block_row0 _ _ _ _ _ p q (fun k => ?_) (fun k => ?_)
  · show V c main_arg0 (((cfg0.win 0).blk t).view.emb (ix2 p k)) = V c main_arg0 (ix2 (⟨4000 * t.val + p.val, by omega⟩ : Fin 100000) k)
    refine congrArg _ (funext fun a => Fin.ext ?_)
    match a with
    | ⟨0, _⟩ => show win0_0.index t (0 : Fin 2) * 4000 + 1 * p.val = 4000 * t.val + p.val; omega
    | ⟨1, _⟩ => show win0_0.index t (1 : Fin 2) * 256 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- THE RESULT ARRAY after the region: the product of the two operand arrays as the region found them. -/
theorem final0 (c : Dev nD) : (dat0 V c).arrAt 2 cfg0.N = prod0 V c :=
  (dat0 V c).arrAt_eq_of_cover 2 (prod0 V c) (fun t _ => flushed0_eq V c t) fun i => by
    have hi0 : (i 0).val < 100000 := (i 0).isLt
    have hi1 : (i 1).val < 128 := (i 1).isLt
    have hN : cfg0.N = 25 := N_0
    refine ⟨⟨(i 0).val / 4000, by rw [hN]; omega⟩, flush0_2 _, ?_⟩
    rw [mem_blk0]
    obtain ⟨-, -, -, -, e4, e5⟩ := idx0 ⟨(i 0).val / 4000, by rw [hN]; omega⟩
    intro a
    match a with
    | ⟨0, _⟩ =>
      show win0_2.index _ (0 : Fin 2) * 4000 ≤ (i 0).val ∧ (i 0).val < win0_2.index _ (0 : Fin 2) * 4000 + 4000
      rw [e4]; show (i 0).val / 4000 * 4000 ≤ (i 0).val ∧ (i 0).val < (i 0).val / 4000 * 4000 + 4000; omega
    | ⟨1, _⟩ =>
      show win0_2.index _ (1 : Fin 2) * 128 ≤ (i 1).val ∧ (i 1).val < win0_2.index _ (1 : Fin 2) * 128 + 128
      rw [e5]; omega

end Cert.Rows

end
-- ==== Proof.Region1.lean ====
/-
  Region 1 (H · Wmu: the [100000, 128] hidden layer against the [128, 64] weights), block by block.

  The grid has 25 points.  Point `t` fetches rows `4000 t … 4000 t + 3999` of the left operand and the whole right operand, stores
  their product into its output block, and the block is written back to rows `4000 t … 4000 t + 3999` of the result array.  Row
  `p` of block `t` is row `4000 t + p` of the array, so by the row lemma of the products the block written back at `t` is block `t`
  of ONE function of the region's entry contents — the whole product of the two operand arrays —, and since the 25 blocks
  cover the 100000 rows (row `r` lies in block `r / 4000`), the result array ends holding that product.
-/
import proofs.«145475_j47047071760639_1_alg».proof.Proof.Gen.KernelIdeal.Frame
import proofs.«145475_j47047071760639_1_alg».proof.Proof.DotRows

noncomputable section

namespace Cert.Rows

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- What the region leaves in its result array: the product of its two operand arrays as it finds them. -/
def prod1 (c : Dev nD) : FVec Ideal Cert.ReferenceIdeal.S100000x64 .f32 :=
  Host.dotGeneral (F := Ideal) (φ₁ := .f32) (φ₂ := .f32) Cert.ReferenceIdeal.dot_S100000x128_S128x64_S100000x64_1_0_0_1_n_n none (V c main_v47 : FVec Ideal Cert.ReferenceIdeal.S100000x128 .f32) (V c main_arg4 : FVec Ideal Cert.ReferenceIdeal.S128x64 .f32)

/-- The three index maps over the grid: the left operand's and the result's blocks move down the rows with the point,
    the right operand's block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the operand arrays. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz1]
  simp only [View.ld_unit_zero (S := S4000x128) hz1, View.ld_unit_zero (S := S128x64) hz1]
  obtain ⟨e0, e1, e2, e3, e4, e5⟩ := idx1 t
  have ht : t.val < 25 := by have h := t.isLt; have hN : cfg1.N = 25 := N_1; omega
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (ix2 p q) = prod1 V c (((cfg1.win 2).blk t).view.emb (ix2 p q))
  have he : ((cfg1.win 2).blk t).view.emb (ix2 p q) = ix2 (⟨4000 * t.val + p.val, by omega⟩ : Fin 100000) q := by
    funext a; apply Fin.ext
    match a with
    | ⟨0, _⟩ => show win1_2.index t (0 : Fin 2) * 4000 + 1 * p.val = 4000 * t.val + p.val; omega
    | ⟨1, _⟩ => show win1_2.index t (1 : Fin 2) * 64 + 1 * q.val = q.val; omega
  rw [he]
  unfold prod1
  refine block_row1 _ _ _ _ _ p q (fun k => ?_) (fun k => ?_)
  · show V c main_v47 (((cfg1.win 0).blk t).view.emb (ix2 p k)) = V c main_v47 (ix2 (⟨4000 * t.val + p.val, by omega⟩ : Fin 100000) k)
    refine congrArg _ (funext fun a => Fin.ext ?_)
    match a with
    | ⟨0, _⟩ => show win1_0.index t (0 : Fin 2) * 4000 + 1 * p.val = 4000 * t.val + p.val; omega
    | ⟨1, _⟩ => show win1_0.index t (1 : Fin 2) * 128 + 1 * k.val = k.val; omega
  · show V c main_arg4 (((cfg1.win 1).blk t).view.emb (ix2 k q)) = V c main_arg4 (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = q.val; omega

/-- An index of the result array is in point `t`'s block iff each coordinate is in the block's range on its axis. -/
theorem mem_blk1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v48).slice (win1_2.rect t)).set ↔ _
  rw [View.set_slice_whole, Rect.mem_set_unit]
  exact Iff.rfl

/-- THE RESULT ARRAY after the region: the product of the two operand arrays as the region found them. -/
theorem final1 (c : Dev nD) : (dat1 V c).arrAt 2 cfg1.N = prod1 V c :=
  (dat1 V c).arrAt_eq_of_cover 2 (prod1 V c) (fun t _ => flushed1_eq V c t) fun i => by
    have hi0 : (i 0).val < 100000 := (i 0).isLt
    have hi1 : (i 1).val < 64 := (i 1).isLt
    have hN : cfg1.N = 25 := N_1
    refine ⟨⟨(i 0).val / 4000, by rw [hN]; omega⟩, flush1_2 _, ?_⟩
    rw [mem_blk1]
    obtain ⟨-, -, -, -, e4, e5⟩ := idx1 ⟨(i 0).val / 4000, by rw [hN]; omega⟩
    intro a
    match a with
    | ⟨0, _⟩ =>
      show win1_2.index _ (0 : Fin 2) * 4000 ≤ (i 0).val ∧ (i 0).val < win1_2.index _ (0 : Fin 2) * 4000 + 4000
      rw [e4]; show (i 0).val / 4000 * 4000 ≤ (i 0).val ∧ (i 0).val < (i 0).val / 4000 * 4000 + 4000; omega
    | ⟨1, _⟩ =>
      show win1_2.index _ (1 : Fin 2) * 64 ≤ (i 1).val ∧ (i 1).val < win1_2.index _ (1 : Fin 2) * 64 + 64
      rw [e5]; omega

end Cert.Rows

end
-- ==== Proof.Region2.lean ====
/-
  Region 2 (H · Wlv: the [100000, 128] hidden layer against the other [128, 64] weights), block by block.

  The grid has 25 points.  Point `t` fetches rows `4000 t … 4000 t + 3999` of the left operand and the whole right operand, stores
  their product into its output block, and the block is written back to rows `4000 t … 4000 t + 3999` of the result array.  Row
  `p` of block `t` is row `4000 t + p` of the array, so by the row lemma of the products the block written back at `t` is block `t`
  of ONE function of the region's entry contents — the whole product of the two operand arrays —, and since the 25 blocks
  cover the 100000 rows (row `r` lies in block `r / 4000`), the result array ends holding that product.
-/
import proofs.«145475_j47047071760639_1_alg».proof.Proof.Gen.KernelIdeal.Frame
import proofs.«145475_j47047071760639_1_alg».proof.Proof.DotRows

noncomputable section

namespace Cert.Rows

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- What the region leaves in its result array: the product of its two operand arrays as it finds them. -/
def prod2 (c : Dev nD) : FVec Ideal Cert.ReferenceIdeal.S100000x64 .f32 :=
  Host.dotGeneral (F := Ideal) (φ₁ := .f32) (φ₂ := .f32) Cert.ReferenceIdeal.dot_S100000x128_S128x64_S100000x64_1_0_0_1_n_n none (V c main_v47 : FVec Ideal Cert.ReferenceIdeal.S100000x128 .f32) (V c main_arg6 : FVec Ideal Cert.ReferenceIdeal.S128x64 .f32)

/-- The three index maps over the grid: the left operand's and the result's blocks move down the rows with the point,
    the right operand's block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the operand arrays. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero hz2]
  simp only [View.ld_unit_zero (S := S4000x128) hz2, View.ld_unit_zero (S := S128x64) hz2]
  obtain ⟨e0, e1, e2, e3, e4, e5⟩ := idx2 t
  have ht : t.val < 25 := by have h := t.isLt; have hN : cfg2.N = 25 := N_2; omega
  funext j
  obtain ⟨p, q, rfl⟩ : ∃ (p : Fin 4000) (q : Fin 64), j = ix2 p q := ⟨j 0, j 1, eq_ix2 j⟩
  show k2_pay1 (F := Ideal) (iblk2 V c 0 t) (iblk2 V c 1 t) (ix2 p q) = prod2 V c (((cfg2.win 2).blk t).view.emb (ix2 p q))
  have he : ((cfg2.win 2).blk t).view.emb (ix2 p q) = ix2 (⟨4000 * t.val + p.val, by omega⟩ : Fin 100000) q := by
    funext a; apply Fin.ext
    match a with
    | ⟨0, _⟩ => show win2_2.index t (0 : Fin 2) * 4000 + 1 * p.val = 4000 * t.val + p.val; omega
    | ⟨1, _⟩ => show win2_2.index t (1 : Fin 2) * 64 + 1 * q.val = q.val; omega
  rw [he]
  unfold prod2
  refine block_row2 _ _ _ _ _ p q (fun k => ?_) (fun k => ?_)
  · show V c main_v47 (((cfg2.win 0).blk t).view.emb (ix2 p k)) = V c main_v47 (ix2 (⟨4000 * t.val + p.val, by omega⟩ : Fin 100000) k)
    refine congrArg _ (funext fun a => Fin.ext ?_)
    match a with
    | ⟨0, _⟩ => show win2_0.index t (0 : Fin 2) * 4000 + 1 * p.val = 4000 * t.val + p.val; omega
    | ⟨1, _⟩ => show win2_0.index t (1 : Fin 2) * 128 + 1 * k.val = k.val; omega
  · show V c main_arg6 (((cfg2.win 1).blk t).view.emb (ix2 k q)) = V c main_arg6 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v65).slice (win2_2.rect t)).set ↔ _
  rw [View.set_slice_whole, Rect.mem_set_unit]
  exact Iff.rfl

/-- THE RESULT ARRAY after the region: the product of the two operand arrays as the region found them. -/
theorem final2 (c : Dev nD) : (dat2 V c).arrAt 2 cfg2.N = prod2 V c :=
  (dat2 V c).arrAt_eq_of_cover 2 (prod2 V c) (fun t _ => flushed2_eq V c t) fun i => by
    have hi0 : (i 0).val < 100000 := (i 0).isLt
    have hi1 : (i 1).val < 64 := (i 1).isLt
    have hN : cfg2.N = 25 := N_2
    refine ⟨⟨(i 0).val / 4000, by rw [hN]; omega⟩, flush2_2 _, ?_⟩
    rw [mem_blk2]
    obtain ⟨-, -, -, -, e4, e5⟩ := idx2 ⟨(i 0).val / 4000, by rw [hN]; omega⟩
    intro a
    match a with
    | ⟨0, _⟩ =>
      show win2_2.index _ (0 : Fin 2) * 4000 ≤ (i 0).val ∧ (i 0).val < win2_2.index _ (0 : Fin 2) * 4000 + 4000
      rw [e4]; show (i 0).val / 4000 * 4000 ≤ (i 0).val ∧ (i 0).val < (i 0).val / 4000 * 4000 + 4000; omega
    | ⟨1, _⟩ =>
      show win2_2.index _ (1 : Fin 2) * 64 ≤ (i 1).val ∧ (i 1).val < win2_2.index _ (1 : Fin 2) * 64 + 64
      rw [e5]; omega

end Cert.Rows

end
-- ==== Proof.LibAfterOn.lean ====
/-
  Host operations respect agreement on a closed set of buffers.

  `StableHlo.after ops V` is the valuation a line of host operations leaves when run from the valuation `V`.  Each
  operation reads and writes only its own buffers `op.bufs`.  So if two valuations agree on a set `S` of buffers that
  contains every operation's buffers, the valuations after the line still agree on `S`: a written buffer takes the
  operation's function of contents that agree, and an untouched buffer keeps contents that agree.

  The use: a stretch of a program that is NOT a line of host operations (a kernel region) may be known to leave, on the
  TensorCore's buffers, what some host operation would have left; everything the later lines compute is then what they
  would compute after that host operation.
-/
import Idealize.ShloMosaic.Lib.StableHlo.Run

namespace Idealize.ShloMosaic.StableHlo

variable {τ : Topo} {sig : RefSig} {Val : EltTy → Type}

/-- Two valuations that agree on `S`, a set holding every buffer the operations touch, agree on `S` after them. -/
theorem after_congr_on (S : Finset (DevRef τ sig)) :
    ∀ (ops : List (HloOp τ sig Val)) (V V' : Valuation τ sig Val), (∀ op ∈ ops, op.bufs ⊆ S) →
      (∀ b ∈ S, V b = V' b) → ∀ b ∈ S, after ops V b = after ops V' b
  | [], _, _, _, h => h
  | op :: ops, V, V', hS, h => by
    intro b hb
    rw [after_cons, after_cons]
    refine after_congr_on S ops _ _ (fun o ho => hS o (List.mem_cons_of_mem _ ho)) (fun b hb => ?_) b hb
    by_cases hm : b ∈ op.bufs
    · exact op.result_congr (fun b' hb' => h b' (hS op List.mem_cons_self hb')) b hm
    · rw [op.result_of_not_mem V (fun hw => hm (op.writes_sub hw)),
        op.result_of_not_mem V' (fun hw => hm (op.writes_sub hw))]
      exact h b hb

/-- The same on the TensorCore's buffers, for a line whose operations touch only those (the form the generated
    `…_sub` facts of a program's host stretches have). -/
theorem after_congr_tc (ops : List (HloOp τ sig Val)) (hsub : ops.Forall fun op => op.bufs ⊆ tcRefs τ sig)
    {V V' : Valuation τ sig Val} (h : ∀ r : Ref sig .tc, V (Proc.devRef .tc r) = V' (Proc.devRef .tc r))
    (r : Ref sig .tc) : after ops V (Proc.devRef .tc r) = after ops V' (Proc.devRef .tc r) := by
  refine after_congr_on (tcRefs τ sig) ops V V' (List.forall_iff_forall_mem.mp hsub) (fun b hb => ?_) _ (devRef_mem_tcRefs r)
  obtain ⟨r', -, rfl⟩ := Finset.mem_map.mp hb
  exact h r'

end Idealize.ShloMosaic.StableHlo
-- ==== Proof.KFold.lean ====
/-
  The kernel's run as ONE line of host operations.

  The generated frame reads the kernel's @main as a fold of valuations `W0 … W10`: a stretch of host operations takes a
  valuation to `StableHlo.after` of it, and a region takes it to the valuation with the region's three arrays replaced by
  what the pipeline leaves (`Pipeline.withArrays`).  By the block-by-block reading (`final0`, `final1`, `final2`) a region leaves
  its two operand arrays as it found them and its result array at the product of the two.  That is, on the TensorCore's
  buffers, exactly what the host operation `dot_general` on those three buffers would have left.  Host operations respect
  agreement on the TensorCore's buffers (`StableHlo.after_congr_tc`), so the final valuation `W10` agrees there with the fold of
  a line of host operations only: the kernel's stretches with a `dot_general` in each region's place — the reference's line.
-/
import proofs.«145475_j47047071760639_1_alg».proof.Proof.Region0
import proofs.«145475_j47047071760639_1_alg».proof.Proof.Region1
import proofs.«145475_j47047071760639_1_alg».proof.Proof.Region2
import proofs.«145475_j47047071760639_1_alg».proof.Proof.LibAfterOn

noncomputable section

namespace Cert.Rows

open Idealize.ShloMosaic Idealize.ShloMosaic.TcCoe Idealize.ShloMosaic.Pipeline Idealize.SL.Sem Idealize.ShloMosaic.StableHlo
open Cert.KernelIdeal Cert.KernelIdeal.Gen

/-- The host operation region 0 amounts to: the features against the first weights. -/
abbrev dotOp0 : HloOp τ sig (Elt Ideal) :=
  StableHlo.binary main_arg0 main_arg2 main_v30 ((fun l r => Host.dotGeneral (F := Ideal) (φ₁ := .f32) (φ₂ := .f32) Cert.ReferenceIdeal.dot_S100000x256_S256x128_S100000x128_1_0_0_1_n_n none l r) : (⟨S100000x256, .f32⟩ : BufTy).Contents (Elt Ideal) → (⟨S256x128, .f32⟩ : BufTy).Contents (Elt Ideal) → (⟨S100000x128, .f32⟩ : BufTy).Contents (Elt Ideal))
/-- The host operation region 1 amounts to: the hidden layer against the second weights. -/
abbrev dotOp1 : HloOp τ sig (Elt Ideal) :=
  StableHlo.binary main_v47 main_arg4 main_v48 ((fun l r => Host.dotGeneral (F := Ideal) (φ₁ := .f32) (φ₂ := .f32) Cert.ReferenceIdeal.dot_S100000x128_S128x64_S100000x64_1_0_0_1_n_n none l r) : (⟨S100000x128, .f32⟩ : BufTy).Contents (Elt Ideal) → (⟨S128x64, .f32⟩ : BufTy).Contents (Elt Ideal) → (⟨S100000x64, .f32⟩ : BufTy).Contents (Elt Ideal))
/-- The host operation region 2 amounts to: the hidden layer against the third weights. -/
abbrev dotOp2 : HloOp τ sig (Elt Ideal) :=
  StableHlo.binary main_v47 main_arg6 main_v65 ((fun l r => Host.dotGeneral (F := Ideal) (φ₁ := .f32) (φ₂ := .f32) Cert.ReferenceIdeal.dot_S100000x128_S128x64_S100000x64_1_0_0_1_n_n none l r) : (⟨S100000x128, .f32⟩ : BufTy).Contents (Elt Ideal) → (⟨S128x64, .f32⟩ : BufTy).Contents (Elt Ideal) → (⟨S100000x64, .f32⟩ : BufTy).Contents (Elt Ideal))

theorem dotOp0_sub : ([dotOp0] : List (HloOp τ sig (Elt Ideal))).Forall fun op => op.bufs ⊆ StableHlo.tcRefs τ sig := by
  show dotOp0.bufs ⊆ StableHlo.tcRefs τ sig
  exact StableHlo.binary_bufs_sub ..
theorem dotOp1_sub : ([dotOp1] : List (HloOp τ sig (Elt Ideal))).Forall fun op => op.bufs ⊆ StableHlo.tcRefs τ sig := by
  show dotOp1.bufs ⊆ StableHlo.tcRefs τ sig
  exact StableHlo.binary_bufs_sub ..
theorem dotOp2_sub : ([dotOp2] : List (HloOp τ sig (Elt Ideal))).Forall fun op => op.bufs ⊆ StableHlo.tcRefs τ sig := by
  show dotOp2.bufs ⊆ StableHlo.tcRefs τ sig
  exact StableHlo.binary_bufs_sub ..

variable (m : (ℓ : Loc nD τ sig) → Buf (Elt Ideal) ℓ) (ρ : Dev nD → PrngReg)

/-- Region 0's exit valuation is, on every TensorCore buffer, what `dot_general` leaves from its entry valuation. -/
theorem W4_as_op (c : Dev nD) (r : Ref sig .tc) :
    W4 m ρ c (Proc.devRef .tc r) = StableHlo.after [dotOp0] (W3 m ρ c) (Proc.devRef .tc r) := by
  show _ = dotOp0.result (W3 m ρ c) (Proc.devRef .tc r)
  by_cases hy : r = main_v30
  · subst hy
    rw [StableHlo.binary_result]
    exact (W4_arr m ρ c 2).trans (final0 (V3 m ρ) c)
  · have hne : dotOp0.result (W3 m ρ c) (Proc.devRef .tc r) = W3 m ρ c (Proc.devRef .tc r) := by
      rw [StableHlo.binary_result_ne]
      all_goals first | rfl | exact hy
    rw [hne]
    by_cases ha : r = main_arg0
    · subst ha
      exact (W4_arr m ρ c 0).trans (((dat0 (V3 m ρ) c).arrAt_in 0 rfl _).trans (A_eq0 (V3 m ρ) c 0))
    · by_cases hb : r = main_arg2
      · subst hb
        exact (W4_arr m ρ c 1).trans (((dat0 (V3 m ρ) c).arrAt_in 1 rfl _).trans (A_eq0 (V3 m ρ) c 1))
      · exact W4_of_ne m ρ c r fun w => match w with
          | ⟨0, _⟩ => Ne.symm ha
          | ⟨1, _⟩ => Ne.symm hb
          | ⟨2, _⟩ => Ne.symm hy

/-- The same for region 1. -/
theorem W7_as_op (c : Dev nD) (r : Ref sig .tc) :
    W7 m ρ c (Proc.devRef .tc r) = StableHlo.after [dotOp1] (W6 m ρ c) (Proc.devRef .tc r) := by
  show _ = dotOp1.result (W6 m ρ c) (Proc.devRef .tc r)
  by_cases hy : r = main_v48
  · subst hy
    rw [StableHlo.binary_result]
    exact (W7_arr m ρ c 2).trans (final1 (V6 m ρ) c)
  · have hne : dotOp1.result (W6 m ρ c) (Proc.devRef .tc r) = W6 m ρ c (Proc.devRef .tc r) := by
      rw [StableHlo.binary_result_ne]
      all_goals first | rfl | exact hy
    rw [hne]
    by_cases ha : r = main_v47
    · subst ha
      exact (W7_arr m ρ c 0).trans (((dat1 (V6 m ρ) c).arrAt_in 0 rfl _).trans (A_eq1 (V6 m ρ) c 0))
    · by_cases hb : r = main_arg4
      · subst hb
        exact (W7_arr m ρ c 1).trans (((dat1 (V6 m ρ) c).arrAt_in 1 rfl _).trans (A_eq1 (V6 m ρ) c 1))
      · exact W7_of_ne m ρ c r fun w => match w with
          | ⟨0, _⟩ => Ne.symm ha
          | ⟨1, _⟩ => Ne.symm hb
          | ⟨2, _⟩ => Ne.symm hy

/-- The same for region 2. -/
theorem W9_as_op (c : Dev nD) (r : Ref sig .tc) :
    W9 m ρ c (Proc.devRef .tc r) = StableHlo.after [dotOp2] (W8 m ρ c) (Proc.devRef .tc r) := by
  show _ = dotOp2.result (W8 m ρ c) (Proc.devRef .tc r)
  by_cases hy : r = main_v65
  · subst hy
    rw [StableHlo.binary_result]
    exact (W9_arr m ρ c 2).trans (final2 (V8 m ρ) c)
  · have hne : dotOp2.result (W8 m ρ c) (Proc.devRef .tc r) = W8 m ρ c (Proc.devRef .tc r) := by
      rw [StableHlo.binary_result_ne]
      all_goals first | rfl | exact hy
    rw [hne]
    by_cases ha : r = main_v47
    · subst ha
      exact (W9_arr m ρ c 0).trans (((dat2 (V8 m ρ) c).arrAt_in 0 rfl _).trans (A_eq2 (V8 m ρ) c 0))
    · by_cases hb : r = main_arg6
      · subst hb
        exact (W9_arr m ρ c 1).trans (((dat2 (V8 m ρ) c).arrAt_in 1 rfl _).trans (A_eq2 (V8 m ρ) c 1))
      · exact W9_of_ne m ρ c r fun w => match w with
          | ⟨0, _⟩ => Ne.symm ha
          | ⟨1, _⟩ => Ne.symm hb
          | ⟨2, _⟩ => Ne.symm hy

/-- The kernel's line with a `dot_general` in each region's place, from a valuation `W`, in the four stretches the value
    reading cuts it into: the edge bookkeeping up to the inverse square-root degrees (`foldA`), the edge weights
    (`foldB`), the first layer (`foldC`), and the two output layers (`foldD`). -/
def foldA (W : Valuation τ sig (Elt Ideal)) : Valuation τ sig (Elt Ideal) :=
  StableHlo.after hostOps0_1 (StableHlo.after hostOps0 W)
def foldB (W : Valuation τ sig (Elt Ideal)) : Valuation τ sig (Elt Ideal) :=
  StableHlo.after hostOps0_2 W
def foldC (W : Valuation τ sig (Elt Ideal)) : Valuation τ sig (Elt Ideal) :=
  StableHlo.after hostOps1_1 (StableHlo.after hostOps1 (StableHlo.after [dotOp0] W))
def foldD (W : Valuation τ sig (Elt Ideal)) : Valuation τ sig (Elt Ideal) :=
  StableHlo.after hostOps3 (StableHlo.after [dotOp2] (StableHlo.after hostOps2 (StableHlo.after [dotOp1] W)))

/-- THE KERNEL'S FINAL VALUATION, on every TensorCore buffer, is the fold of that line from the launch contents. -/
theorem W10_eq_fold (c : Dev nD) (r : Ref sig .tc) :
    W10 m ρ c (Proc.devRef .tc r) = foldD (foldC (foldB (foldA (W0 m ρ c)))) (Proc.devRef .tc r) := by
  have h4 : ∀ r : Ref sig .tc, W4 m ρ c (Proc.devRef .tc r) = StableHlo.after [dotOp0] (W3 m ρ c) (Proc.devRef .tc r) := W4_as_op m ρ c
  have h6 : ∀ r : Ref sig .tc, W6 m ρ c (Proc.devRef .tc r)
      = StableHlo.after hostOps1_1 (StableHlo.after hostOps1 (StableHlo.after [dotOp0] (W3 m ρ c))) (Proc.devRef .tc r) :=
    fun r => StableHlo.after_congr_tc hostOps1_1 hostOps1_1_sub (fun r => StableHlo.after_congr_tc hostOps1 hostOps1_sub h4 r) r
  have h7 : ∀ r : Ref sig .tc, W7 m ρ c (Proc.devRef .tc r)
      = StableHlo.after [dotOp1] (StableHlo.after hostOps1_1 (StableHlo.after hostOps1 (StableHlo.after [dotOp0] (W3 m ρ c)))) (Proc.devRef .tc r) :=
    fun r => (W7_as_op m ρ c r).trans (StableHlo.after_congr_tc [dotOp1] dotOp1_sub h6 r)
  have h8 : ∀ r : Ref sig .tc, W8 m ρ c (Proc.devRef .tc r)
      = StableHlo.after hostOps2 (StableHlo.after [dotOp1] (StableHlo.after hostOps1_1 (StableHlo.after hostOps1 (StableHlo.after [dotOp0] (W3 m ρ c))))) (Proc.devRef .tc r) :=
    fun r => StableHlo.after_congr_tc hostOps2 hostOps2_sub h7 r
  have h9 : ∀ r : Ref sig .tc, W9 m ρ c (Proc.devRef .tc r)
      = StableHlo.after [dotOp2] (StableHlo.after hostOps2 (StableHlo.after [dotOp1] (StableHlo.after hostOps1_1 (StableHlo.after hostOps1 (StableHlo.after [dotOp0] (W3 m ρ c)))))) (Proc.devRef .tc r) :=
    fun r => (W9_as_op m ρ c r).trans (StableHlo.after_congr_tc [dotOp2] dotOp2_sub h8 r)
  exact StableHlo.after_congr_tc hostOps3 hostOps3_sub h9 r

end Cert.Rows

end
-- ==== Proof.Bridge.lean ====
/-
  The two lines of host operations compute the same results.

  After `W10_eq_fold` the kernel's final valuation is, on the TensorCore's buffers, the fold of a line of host operations
  that is, operation for operation, the reference's line: the same edge bookkeeping (self loops appended to the edge list,
  the degrees by a scatter of ones, their inverse square roots where the degree is positive, the two gathers and their
  product), a `dot_general`, the same gather–scale–scatter–bias–relu layer, a `dot_general` and the same output layer,
  twice.  The two lines live over two different buffer signatures, so they are compared by reading both at the same
  buffer: a result buffer's contents after a line is its operation's function of its operands' contents, which are read in
  turn, down to the launch contents of the arguments (`after_results`, `after_results_simp`).  Both readings are the same
  term of the arguments, and the arguments agree.

  The reading is cut once, after the first seven operations (the two index lists of the edges with their self loops): what a
  `concatenate` leaves is read with the step-by-step tactic, everything after it in one pass, the two index lists standing
  as they are.
-/
import proofs.«145475_j47047071760639_1_alg».proof.Proof.KFold
import proofs.«145475_j47047071760639_1_alg».proof.Proof.RefRunP

noncomputable section

namespace Cert.Bridge

open Idealize.ShloMosaic Idealize.ShloMosaic.TcCoe Idealize.SL.Sem Idealize.ShloMosaic.StableHlo
open Cert.Rows

/-- The kernel's and the reference's valuations: buffer contents over each program's own signature, at the extended reals. -/
abbrev KV := Valuation Cert.KernelIdeal.τ Cert.KernelIdeal.sig (Elt Ideal)
abbrev RV := Valuation Cert.ReferenceIdeal.τ Cert.ReferenceIdeal.sig (Elt Ideal)

/-! ### A line run up to, or from, a position -/

section Cut
variable {τ : Topo} {sig : RefSig} {Val : EltTy → Type}

theorem after_take_succ (n : Nat) (a : HloOp τ sig Val) (l : List (HloOp τ sig Val)) (V : Valuation τ sig Val) :
    after (List.take (n + 1) (a :: l)) V = after (List.take n l) (a.result V) := rfl
theorem after_take_zero (l : List (HloOp τ sig Val)) (V : Valuation τ sig Val) : after (List.take 0 l) V = V := rfl
theorem after_drop_succ (n : Nat) (a : HloOp τ sig Val) (l : List (HloOp τ sig Val)) (V : Valuation τ sig Val) :
    after (List.drop (n + 1) (a :: l)) V = after (List.drop n l) V := rfl
theorem after_drop_zero (l : List (HloOp τ sig Val)) (V : Valuation τ sig Val) : after (List.drop 0 l) V = after l V := rfl

/-- A line is its first `k` operations followed by the rest. -/
theorem after_cut (k : Nat) (l : List (HloOp τ sig Val)) (V : Valuation τ sig Val) :
    after l V = after (List.drop k l) (after (List.take k l) V) := by
  rw [← StableHlo.after_append, List.take_append_drop]
end Cut

/-- The two valuations hold the same contents at the eight arguments. -/
structure ArgsAgree (Xk : KV) (Xr : RV) : Prop where
  a0 : Xk (Proc.devRef (τ := Cert.KernelIdeal.τ) .tc Cert.KernelIdeal.main_arg0) = Xr (Proc.devRef (τ := Cert.ReferenceIdeal.τ) .tc Cert.ReferenceIdeal.main_arg0)
  a1 : Xk (Proc.devRef (τ := Cert.KernelIdeal.τ) .tc Cert.KernelIdeal.main_arg1) = Xr (Proc.devRef (τ := Cert.ReferenceIdeal.τ) .tc Cert.ReferenceIdeal.main_arg1)
  a2 : Xk (Proc.devRef (τ := Cert.KernelIdeal.τ) .tc Cert.KernelIdeal.main_arg2) = Xr (Proc.devRef (τ := Cert.ReferenceIdeal.τ) .tc Cert.ReferenceIdeal.main_arg2)
  a3 : Xk (Proc.devRef (τ := Cert.KernelIdeal.τ) .tc Cert.KernelIdeal.main_arg3) = Xr (Proc.devRef (τ := Cert.ReferenceIdeal.τ) .tc Cert.ReferenceIdeal.main_arg3)
  a4 : Xk (Proc.devRef (τ := Cert.KernelIdeal.τ) .tc Cert.KernelIdeal.main_arg4) = Xr (Proc.devRef (τ := Cert.ReferenceIdeal.τ) .tc Cert.ReferenceIdeal.main_arg4)
  a5 : Xk (Proc.devRef (τ := Cert.KernelIdeal.τ) .tc Cert.KernelIdeal.main_arg5) = Xr (Proc.devRef (τ := Cert.ReferenceIdeal.τ) .tc Cert.ReferenceIdeal.main_arg5)
  a6 : Xk (Proc.devRef (τ := Cert.KernelIdeal.τ) .tc Cert.KernelIdeal.main_arg6) = Xr (Proc.devRef (τ := Cert.ReferenceIdeal.τ) .tc Cert.ReferenceIdeal.main_arg6)
  a7 : Xk (Proc.devRef (τ := Cert.KernelIdeal.τ) .tc Cert.KernelIdeal.main_arg7) = Xr (Proc.devRef (τ := Cert.ReferenceIdeal.τ) .tc Cert.ReferenceIdeal.main_arg7)

/-! ### The first seven operations: the edges' source and target lists, self loops appended -/

/-- The kernel's valuation after its first seven operations. -/
def edgesK (W : KV) : KV := after (List.take 7 (Cert.KernelIdeal.Gen.hostOps0 (F := Ideal))) W
/-- The reference's. -/
def edgesR (W : RV) : RV := after (List.take 7 (Cert.ReferenceIdeal.ValueP.ops (F := Ideal))) W

theorem edges_src {Wk : KV} {Wr : RV} (h : ArgsAgree Wk Wr) :
    edgesK Wk (Proc.devRef (τ := Cert.KernelIdeal.τ) .tc Cert.KernelIdeal.main_v3) = edgesR Wr (Proc.devRef (τ := Cert.ReferenceIdeal.τ) .tc Cert.ReferenceIdeal.main_v3) := by
  unfold edgesK edgesR
  repeat rw [after_take_succ]
  repeat rw [after_take_zero]
  after_results
  rw [h.a1]
  rfl

theorem edges_tgt {Wk : KV} {Wr : RV} (h : ArgsAgree Wk Wr) :
    edgesK Wk (Proc.devRef (τ := Cert.KernelIdeal.τ) .tc Cert.KernelIdeal.main_v6) = edgesR Wr (Proc.devRef (τ := Cert.ReferenceIdeal.τ) .tc Cert.ReferenceIdeal.main_v6) := by
  unfold edgesK edgesR
  repeat rw [after_take_succ]
  repeat rw [after_take_zero]
  after_results
  rw [h.a1]
  rfl

set_option maxHeartbeats 8000000 in
theorem edges_args {Wk : KV} {Wr : RV} (h : ArgsAgree Wk Wr) : ArgsAgree (edgesK Wk) (edgesR Wr) := by
  refine ⟨?_, ?_, ?_, ?_, ?_, ?_, ?_, ?_⟩
  all_goals
    unfold edgesK edgesR
    repeat rw [after_take_succ]
    repeat rw [after_take_zero]
    after_results
  · exact h.a0
  · exact h.a1
  · exact h.a2
  · exact h.a3
  · exact h.a4
  · exact h.a5
  · exact h.a6
  · exact h.a7

/-! ### Everything after them -/

/-- The kernel's line from its eighth operation on, a `dot_general` in each region's place. -/
def restK (X : KV) : KV :=
  foldD (foldC (foldB (after (Cert.KernelIdeal.Gen.hostOps0_1 (F := Ideal)) (after (List.drop 7 (Cert.KernelIdeal.Gen.hostOps0 (F := Ideal))) X))))
/-- The reference's line from its eighth operation on. -/
def restR (X : RV) : RV := after (List.drop 7 (Cert.ReferenceIdeal.ValueP.ops (F := Ideal))) X

set_option maxRecDepth 8192 in
set_option maxHeartbeats 80000000 in
/-- The first result (the means): the same term of the two index lists and the arguments on both sides. -/
theorem rest_out0 {Xk : KV} {Xr : RV} (h : ArgsAgree Xk Xr)
    (h3 : Xk (Proc.devRef (τ := Cert.KernelIdeal.τ) .tc Cert.KernelIdeal.main_v3) = Xr (Proc.devRef (τ := Cert.ReferenceIdeal.τ) .tc Cert.ReferenceIdeal.main_v3)) (h6 : Xk (Proc.devRef (τ := Cert.KernelIdeal.τ) .tc Cert.KernelIdeal.main_v6) = Xr (Proc.devRef (τ := Cert.ReferenceIdeal.τ) .tc Cert.ReferenceIdeal.main_v6)) :
    restK Xk (Proc.devRef (τ := Cert.KernelIdeal.τ) .tc Cert.KernelIdeal.main_v64) = restR Xr (Proc.devRef (τ := Cert.ReferenceIdeal.τ) .tc Cert.ReferenceIdeal.main_v64) := by
  unfold restK restR foldD foldC foldB
  simp only [after_drop_succ, after_drop_zero]
  after_results_simp
  simp only [h3, h6, h.a0, h.a1, h.a2, h.a3, h.a4, h.a5, h.a6, h.a7]
  rfl

set_option maxRecDepth 8192 in
set_option maxHeartbeats 80000000 in
/-- The second result (the log-variances). -/
theorem rest_out1 {Xk : KV} {Xr : RV} (h : ArgsAgree Xk Xr)
    (h3 : Xk (Proc.devRef (τ := Cert.KernelIdeal.τ) .tc Cert.KernelIdeal.main_v3) = Xr (Proc.devRef (τ := Cert.ReferenceIdeal.τ) .tc Cert.ReferenceIdeal.main_v3)) (h6 : Xk (Proc.devRef (τ := Cert.KernelIdeal.τ) .tc Cert.KernelIdeal.main_v6) = Xr (Proc.devRef (τ := Cert.ReferenceIdeal.τ) .tc Cert.ReferenceIdeal.main_v6)) :
    restK Xk (Proc.devRef (τ := Cert.KernelIdeal.τ) .tc Cert.KernelIdeal.main_v81) = restR Xr (Proc.devRef (τ := Cert.ReferenceIdeal.τ) .tc Cert.ReferenceIdeal.main_v81) := by
  unfold restK restR foldD foldC foldB
  simp only [after_drop_succ, after_drop_zero]
  after_results_simp
  simp only [h3, h6, h.a0, h.a1, h.a2, h.a3, h.a4, h.a5, h.a6, h.a7]
  rfl

/-! ### The two lines, whole -/

theorem foldK_eq (W : KV) : foldD (foldC (foldB (foldA W))) = restK (edgesK W) := by
  unfold restK edgesK foldA
  rw [after_cut 7 (Cert.KernelIdeal.Gen.hostOps0 (F := Ideal)) W]

theorem foldR_eq (W : RV) : after (Cert.ReferenceIdeal.ValueP.ops (F := Ideal)) W = restR (edgesR W) := by
  unfold restR edgesR
  exact after_cut 7 _ W

/-- From launch contents that agree on the arguments the two lines leave the same two results. -/
theorem lines_agree {Wk : KV} {Wr : RV} (h : ArgsAgree Wk Wr) :
    foldD (foldC (foldB (foldA Wk))) (Proc.devRef (τ := Cert.KernelIdeal.τ) .tc Cert.KernelIdeal.main_v64) = after (Cert.ReferenceIdeal.ValueP.ops (F := Ideal)) Wr (Proc.devRef (τ := Cert.ReferenceIdeal.τ) .tc Cert.ReferenceIdeal.main_v64)
    ∧ foldD (foldC (foldB (foldA Wk))) (Proc.devRef (τ := Cert.KernelIdeal.τ) .tc Cert.KernelIdeal.main_v81) = after (Cert.ReferenceIdeal.ValueP.ops (F := Ideal)) Wr (Proc.devRef (τ := Cert.ReferenceIdeal.τ) .tc Cert.ReferenceIdeal.main_v81) := by
  rw [foldK_eq, foldR_eq]
  exact ⟨rest_out0 (edges_args h) (edges_src h) (edges_tgt h), rest_out1 (edges_args h) (edges_src h) (edges_tgt h)⟩

end Cert.Bridge

end
-- ==== Proof.lean ====
/-
  A two-layer graph-convolution encoder: the Pallas kernel against its jnp reference, over the extended reals.

  Both programs add a self loop to every node, count the degrees by scattering ones at the edges' targets, weigh edge
  (s, t) by  deg(s)^(-1/2) · deg(t)^(-1/2)  (zero where a degree is not positive), and apply three times the layer

      out[t, :] = bias + ∑ over edges (s, t) of weight(s, t) · (X · W)[s, :]

  — once to the features with a relu after it, and twice to the hidden layer, for the means and for the log-variances.
  They differ in ONE thing: the reference computes each product X · W by a `dot_general` of the whole [100000, K] array,
  the kernel by a Pallas region that goes down the rows in 25 blocks of 4000, casts each block and the weights to bf16 and
  multiplies them on the matrix unit into a zero accumulator.  Over the extended reals the cast is the identity and both
  products are, entry by entry, the same sum  ∑ k, X[r, k] · W[k, q]  (Proof/DotRows.lean), and the 25 blocks tile the rows
  (Proof/Region0.lean … Region2.lean), so each region leaves in its result array exactly what the `dot_general` leaves,
  and its operands as they were.  Everything else in the two programs is the same line of host operations, so the two
  runs end with equal results (Proof/KFold.lean: the kernel's run as one line of host operations; Proof/Bridge.lean: the
  two lines read at the result buffers).  No law of arithmetic is used anywhere — the two sides are the same sums of the
  same products in the same order — so the finiteness of the inputs is never opened: the precondition is not needed.

  The three frames are the generated ones (the reference's is its run with the results dropped); the ideal pass rewrote
  nothing, so there is nothing to preserve.
-/
import proofs.«145475_j47047071760639_1_alg».proof.Defs
import proofs.«145475_j47047071760639_1_alg».proof.Proof.Gen.Kernel
import proofs.«145475_j47047071760639_1_alg».proof.Proof.Gen.Kernel.Frame
import proofs.«145475_j47047071760639_1_alg».proof.Proof.Gen.KernelIdeal
import proofs.«145475_j47047071760639_1_alg».proof.Proof.Gen.KernelIdeal.Frame
import proofs.«145475_j47047071760639_1_alg».proof.Proof.Gen.ReferenceIdeal
import proofs.«145475_j47047071760639_1_alg».proof.Proof.Gen.Pre_finite_inputs
import proofs.«145475_j47047071760639_1_alg».proof.Proof.KRun
import proofs.«145475_j47047071760639_1_alg».proof.Proof.RefRunP
import proofs.«145475_j47047071760639_1_alg».proof.Proof.KFold
import proofs.«145475_j47047071760639_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- The kernel's two result arrays end at the last valuation of its fold; on the result buffers that valuation is the fold of
    the kernel's line of host operations with a `dot_general` in each region's place (`W10_eq_fold`), which from launch
    contents agreeing on the arguments leaves what the reference's line leaves (`lines_agree`). -/
theorem algebraic : Cert.algebraic_KernelIdeal_ReferenceIdeal := by
  intro m ρ m' ρ' _ hagree
  refine ⟨fun c => Cert.KernelIdeal.Gen.W10 m ρ c (Proc.devRef .tc Cert.KernelIdeal.main_v64),
    fun c => Cert.KernelIdeal.Gen.W10 m ρ c (Proc.devRef .tc Cert.KernelIdeal.main_v81),
    Cert.KernelIdeal.RunV.run_named m ρ, ?_⟩
  refine (θ_run Cert.ReferenceIdeal.defs _ _).mono (fun _ h c => ?_) (Cert.ReferenceIdeal.ValueP.run (F := Ideal) m' ρ')
  have hA : Cert.Bridge.ArgsAgree (Cert.KernelIdeal.Gen.W0 m ρ c) (launchContents m' c) :=
    ⟨(hagree c).1.symm, (hagree c).2.1.symm, (hagree c).2.2.1.symm, (hagree c).2.2.2.1.symm, (hagree c).2.2.2.2.1.symm,
      (hagree c).2.2.2.2.2.1.symm, (hagree c).2.2.2.2.2.2.1.symm, (hagree c).2.2.2.2.2.2.2.symm⟩
  obtain ⟨e0, e1⟩ := Cert.Bridge.lines_agree hA
  refine ⟨(h c).1.trans ?_, (h c).2.1.trans ?_, (h c).2.2⟩
  · exact e0.symm.trans (Cert.Rows.W10_eq_fold m ρ c Cert.KernelIdeal.main_v64).symm
  · exact e1.symm.trans (Cert.Rows.W10_eq_fold m ρ c Cert.KernelIdeal.main_v81).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
